-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 50
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .bf16⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S1x800000, .i32⟩
  | .hbm, ⟨30, _⟩ => ⟨S800000, .i32⟩
  | .hbm, ⟨31, _⟩ => ⟨S1x800000, .i32⟩
  | .hbm, ⟨32, _⟩ => ⟨S800000, .i32⟩
  | .hbm, ⟨33, _⟩ => ⟨S50000x128, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .bf16⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with its result array named.

  @main is four segments: the host operations that form the first layer's neighbour sums and lay out its bias, the
  first kernel call, the same host operations on the first call's output with the second layer's bias, and the second
  call. Between segments each core holds every unscoped buffer whole at a known valuation: the launch memory, then each
  host stretch's operations applied, then each call's arrays at what its write-backs leave. The run ends with every
  unscoped buffer at the last of these valuations; reading the final memory against it gives the result array, which is
  the second call's output array there, and each argument array, which no segment writes.
-/
import proofs.«152039_j22428319219806_2_alg».proof.Proof.Gen.KernelIdeal.Frame
import Idealize.ShloMosaic.PureOps.Ideal

set_option maxRecDepth 16384

noncomputable section

namespace GraphConv.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of @main terminates without a fault; the result array ends at the last valuation's
    contents for it, and the eight argument arrays end as launched. -/
theorem run : θ_run defs (onTc (τ := τ) (main (F := Ideal))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end GraphConv.KernelRun

end
-- ==== Proof.DenseStage.lean ====
/-
  One dense stage of the graph convolution, on the extended reals.

  A layer takes the node features x (50000 nodes, 128 features each), the neighbour sums agg (row d of agg is the
  sum of the rows x[s] over the edges s → d; how it is formed does not matter here), two 128 × 128 weight matrices and
  a bias, and returns, at node p and output feature q,

      Σ_k agg[p, k] · wrel[k, q]  +  Σ_k x[p, k] · wroot[k, q]  +  bias[q].

  The two programs group the three summands differently — (rel + root) + bias against (rel + bias) + root. Addition
  of extended reals is commutative and associative without any finiteness assumption (−∞ absorbs +∞ on either
  side of either grouping), so the two groupings are one function: `dense_bias_first`.

  The bias enters as a function of the output index, so that either program's way of laying it out (a [1, 128] row
  broadcast down the rows, or a [128] vector broadcast in two steps) can be read into it.
-/
import Idealize.ShloMosaic.PureOps.Ideal
import Idealize.ShloMosaic.Lib.ValueIdx

noncomputable section

namespace GraphConv

open Idealize.ShloMosaic

/-- Node features: 50000 nodes by 128 features. -/
abbrev Feat : Shape := ⟨2, ![50000, 128]⟩
/-- A weight matrix: 128 input features by 128 output features. -/
abbrev Wt : Shape := ⟨2, ![128, 128]⟩

/-- Entry k of the row of the output index i: (node of i, k). -/
abbrev rowAt (i : Feat.Idx) (k : Fin 128) : Feat.Idx := fun a => match a with
  | ⟨0, _⟩ => ⟨(i 0).val, (i 0).isLt⟩
  | ⟨1, _⟩ => ⟨k.val, k.isLt⟩
/-- Entry k of the weight column of the output index i: (k, feature of i). -/
abbrev colAt (i : Feat.Idx) (k : Fin 128) : Wt.Idx := fun a => match a with
  | ⟨0, _⟩ => ⟨k.val, k.isLt⟩
  | ⟨1, _⟩ => ⟨(i 1).val, (i 1).isLt⟩

/-- One dense stage: (agg · wrel + x · wroot) + bias, entry by entry. -/
def dense (agg x : Feat.Idx → EReal) (wrel wroot : Wt.Idx → EReal) (bias : Feat.Idx → EReal) : Feat.Idx → EReal :=
  fun i => (∑ k : Fin 128, agg (rowAt i k) * wrel (colAt i k) + ∑ k : Fin 128, x (rowAt i k) * wroot (colAt i k)) + bias i

/-- Adding the bias before the second product instead of after it gives the same stage: (a + b) + c = (a + c) + b
    in any commutative additive monoid, the extended reals among them. -/
theorem dense_bias_first (agg x : Feat.Idx → EReal) (wrel wroot : Wt.Idx → EReal) (bias : Feat.Idx → EReal) (i : Feat.Idx) :
    (∑ k : Fin 128, agg (rowAt i k) * wrel (colAt i k) + bias i) + ∑ k : Fin 128, x (rowAt i k) * wroot (colAt i k)
      = dense agg x wrel wroot bias i :=
  add_right_comm _ _ _

end GraphConv

end
-- ==== Proof.BlockProduct.lean ====
/-
  What the kernel body stores, entry by entry.

  At one grid point the body holds a block of 5000 rows of the neighbour sums and of the node features, the two
  128 × 128 weight matrices whole, and the bias as a [1, 128] row. It narrows the four matrix operands to bf16 (no
  change of value on the extended reals), multiplies each row block by its weight matrix into a zero accumulator,
  adds the two products, and adds the bias row broadcast down the 5000 rows. So entry (r, q) of the stored block is

      (Σ_k agg[r, k] · wrel[k, q]  +  Σ_k x[r, k] · wroot[k, q])  +  bias[0, q].

  The product into a zero accumulator is the plain sum over the one contracted axis: the accumulator contributes
  0 + ·, and the contraction index, a one-coordinate index, is re-indexed by that coordinate.
-/
import proofs.«152039_j22428319219806_2_alg».proof.Proof.Gen.KernelIdeal.Skeleton
import Idealize.ShloMosaic.Lib.Pipeline.Value
import Idealize.ShloMosaic.Lib.ValueIdx
import Idealize.ShloMosaic.PureOps.Ideal.Laws

noncomputable section

namespace GraphConv.Block

open Idealize.ShloMosaic Cert.KernelIdeal Cert.KernelIdeal.Gen

/-- Entry k of row (j 0) of a 5000-row block. -/
abbrev blkRow (j : S5000x128.Idx) (k : Fin 128) : S5000x128.Idx := fun a => match a with
  | ⟨0, _⟩ => ⟨(j 0).val, (j 0).isLt⟩
  | ⟨1, _⟩ => ⟨k.val, k.isLt⟩
/-- Entry k of column (j 1) of a weight matrix. -/
abbrev blkCol (j : S5000x128.Idx) (k : Fin 128) : S128x128.Idx := fun a => match a with
  | ⟨0, _⟩ => ⟨k.val, k.isLt⟩
  | ⟨1, _⟩ => ⟨(j 1).val, (j 1).isLt⟩
/-- Entry (j 1) of the bias row. -/
abbrev blkBias (j : S5000x128.Idx) : S1x128.Idx := fun a => match a with
  | ⟨0, _⟩ => ⟨0, Nat.one_pos⟩
  | ⟨1, _⟩ => ⟨(j 1).val, (j 1).isLt⟩

/-! ## The product's operand indices: the left operand's row is the output's, the right operand's column is the
    output's, and both run over the contracted coordinate -/

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row block times a weight matrix into the zero accumulator, at entry j: the sum over k of row entry k times
    column entry k. -/
theorem product_apply {φ₁ φ₂ : FTy} (l : FVec Ideal S5000x128 φ₁) (r : FVec Ideal S128x128 φ₂) (j : S5000x128.Idx) :
    matmul (F := Ideal) dot_S5000x128_S128x128_S5000x128_1_0_0_1_n_n none l r (constant S5000x128 .f32 0x00000000#32) j
      = ∑ k : Fin 128, l (blkRow j k) * r (blkCol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blkRow j k := funext fun a => Fin.ext (by
    match a with
    | ⟨0, _⟩ => exact lhs_row _ _
    | ⟨1, _⟩ => exact (lhs_contr _ _).trans hk)
  have er : dot_S5000x128_S128x128_S5000x128_1_0_0_1_n_n.rhsIdx j ((ValueIdx.contrEquiv1 dot_S5000x128_S128x128_S5000x128_1_0_0_1_n_n 128 rfl rfl).symm k) = blkCol j k := funext fun a => Fin.ext (by
    match a with
    | ⟨0, _⟩ => exact (rhs_contr _ _).trans hk
    | ⟨1, _⟩ => exact rhs_col _ _)
  rw [el, er]

/-- The bias row broadcast down the block's rows, at entry j: the row's entry in j's column. -/
theorem bias_apply (b : FVec Ideal S1x128 .f32) (j : S5000x128.Idx) :
    broadcastTo S5000x128 b broadcasts_S1x128_S5000x128 j = b (blkBias j) :=
  broadcastTo_apply b broadcasts_S1x128_S5000x128 j (blkBias j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The first call's stored block, entry by entry. -/
theorem stored0_apply (agg x : Vec Ideal S5000x128 .f32) (wrel wroot : Vec Ideal S128x128 .f32) (b : Vec Ideal S1x128 .f32) (j : S5000x128.Idx) :
    k0_pay1 (F := Ideal) agg x wrel wroot b j
      = (∑ k : Fin 128, agg (blkRow j k) * wrel (blkCol j k) + ∑ k : Fin 128, x (blkRow j k) * wroot (blkCol j k)) + b (blkBias j) := by
  have h1 := product_apply (φ₁ := .bf16) (φ₂ := .bf16) agg wrel j
  have h2 := product_apply (φ₁ := .bf16) (φ₂ := .bf16) x wroot j
  have h3 := bias_apply b j
  unfold k0_pay1
  simp only [shapeCast_self]
  exact congrArg₂ (· + ·) (congrArg₂ (· + ·) h1 h2) h3

/-- The second call's stored block, entry by entry: the same function of its five operands. -/
theorem stored1_apply (agg x : Vec Ideal S5000x128 .f32) (wrel wroot : Vec Ideal S128x128 .f32) (b : Vec Ideal S1x128 .f32) (j : S5000x128.Idx) :
    k1_pay1 (F := Ideal) agg x wrel wroot b j
      = (∑ k : Fin 128, agg (blkRow j k) * wrel (blkCol j k) + ∑ k : Fin 128, x (blkRow j k) * wroot (blkCol j k)) + b (blkBias j) := by
  have h1 := product_apply (φ₁ := .bf16) (φ₂ := .bf16) agg wrel j
  have h2 := product_apply (φ₁ := .bf16) (φ₂ := .bf16) x wroot j
  have h3 := bias_apply b j
  unfold k1_pay1
  simp only [shapeCast_self]
  exact congrArg₂ (· + ·) (congrArg₂ (· + ·) h1 h2) h3

end GraphConv.Block

end
-- ==== Proof.RegionValue.lean ====
/-
  Each of the two kernel calls, at whatever contents its operand arrays hold when it is entered: after the call its
  output array is the dense stage of those five arrays.

  A call runs over ten grid points. Point t stages rows 5000·t … 5000·t + 4999 of the neighbour sums and of the node
  features, the two weight matrices and the bias row whole, and writes the body's block back to the same rows of
  the output. The stored block is, entry by entry, the dense stage restricted to those rows (the body's arithmetic
  read at an entry, and each staged block read where the output block's rows say). The ten blocks tile the 50000
  rows, so the array ends holding the stage everywhere.
-/
import proofs.«152039_j22428319219806_2_alg».proof.Proof.Gen.KernelIdeal.Frame
import proofs.«152039_j22428319219806_2_alg».proof.Proof.DenseStage
import proofs.«152039_j22428319219806_2_alg».proof.Proof.BlockProduct
import Idealize.ShloMosaic.Lib.Pipeline.Value

set_option maxRecDepth 16384

noncomputable section

namespace GraphConv.Region

open Idealize.ShloMosaic Idealize.ShloMosaic.TcCoe Idealize.SL.Sem Cert.KernelIdeal Cert.KernelIdeal.Gen
open Idealize.ShloMosaic.Pipeline (Dat Cfg Window)
open GraphConv GraphConv.Block

variable (V : (c : Dev nD) → (b : Ref sig .tc) → Buf (Elt Ideal) ((c : Thread nD τ).loc b))

theorem hz : (![0, 0] : Fin 2 → Nat) = fun _ => 0 := funext fun a => by fin_cases a <;> rfl

/-- The bias row's entry for the output index i: (0, feature of i). -/
abbrev biasRowAt (i : Feat.Idx) : S1x128.Idx := fun a => match a with
  | ⟨0, _⟩ => ⟨0, Nat.one_pos⟩
  | ⟨1, _⟩ => ⟨(i 1).val, (i 1).isLt⟩

/-! ## Call 0 -/

/-- The index maps of call 0, decided over its ten grid points: the two row-block operands move with the output
    block down the rows, the weights and the bias row stay at block (0, 0), and the output's row-block index stays
    below ten. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some grid point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- What grid point t writes back is block t of the dense stage of the five operand arrays as the call finds them:
    rows 5000·t … 5000·t + 4999 of the stage depend on exactly those rows of the two row-block operands, and on the
    weights and the bias whole. -/
theorem flushed0 (c : Dev nD) (t : Fin cfg0.N) :
    (dat0 (F := Ideal) V c).flushed 5 t
      = ((cfg0.win 5).blk t).view.read (Elt Ideal)
          (dense (V c main_v15) (V c main_arg0) (V c main_arg2) (V c main_arg4) (fun i => V c main_v16 (biasRowAt i))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, -, e51⟩ := idx_facts0 t
  funext j
  have hj0 : (j 0).val < 5000 := (j 0).isLt
  have hj1 : (j 1).val < 128 := (j 1).isLt
  refine (stored0_apply (iblk0 V c 0 t) (iblk0 V c 1 t) (iblk0 V c 2 t) (iblk0 V c 4 t) (iblk0 V c 3 t) j).trans ?_
  have r0 : ∀ k : Fin 128, ((cfg0.win 0).blk t).view.emb (blkRow j k) = rowAt (((cfg0.win 5).blk t).view.emb j) k := fun k => by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have r1 : ∀ k : Fin 128, ((cfg0.win 1).blk t).view.emb (blkRow j k) = rowAt (((cfg0.win 5).blk t).view.emb j) k := fun k => by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have c2 : ∀ k : Fin 128, ((cfg0.win 2).blk t).view.emb (blkCol j k) = colAt (((cfg0.win 5).blk t).view.emb j) k := fun k => by
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have c4 : ∀ k : Fin 128, ((cfg0.win 4).blk t).view.emb (blkCol j k) = colAt (((cfg0.win 5).blk t).view.emb j) k := fun k => by
    funext a; apply Fin.ext
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega
  have b3 : ((cfg0.win 3).blk t).view.emb (blkBias j) = biasRowAt (((cfg0.win 5).blk t).view.emb j) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega
  refine congrArg₂ (· + ·) (congrArg₂ (· + ·) (Finset.sum_congr rfl fun k _ => ?_) (Finset.sum_congr rfl fun k _ => ?_)) ?_
  · exact congrArg₂ (fun a b : EReal => a * b) (congrArg (V c main_v15) (r0 k)) (congrArg (V c main_arg2) (c2 k))
  · exact congrArg₂ (fun a b : EReal => a * b) (congrArg (V c main_arg0) (r1 k)) (congrArg (V c main_arg4) (c4 k))
  · exact congrArg (V c main_v16) b3

/-- An index of the output array is in grid point t's block iff each coordinate is in the block's range. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- The ten row blocks cover the output array: row r lies in block r / 5000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- Call 0's output array after its ten write-backs: the dense stage of the operand arrays as the call finds them. -/
theorem array0 (c : Dev nD) :
    (dat0 (F := Ideal) V c).arrAt 5 cfg0.N
      = dense (V c main_v15) (V c main_arg0) (V c main_arg2) (V c main_arg4) (fun i => V c main_v16 (biasRowAt i)) :=
  (dat0 (F := Ideal) V c).arrAt_eq_of_cover 5 _ (fun t _ => flushed0 V c t) (cover0)

/-! ## Call 1 -/

/-- The index maps of call 1, decided over its ten grid points: the two row-block operands move with the output
    block down the rows, the weights and the bias row stay at block (0, 0), and the output's row-block index stays
    below ten. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some grid point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- What grid point t writes back is block t of the dense stage of the five operand arrays as the call finds them:
    rows 5000·t … 5000·t + 4999 of the stage depend on exactly those rows of the two row-block operands, and on the
    weights and the bias whole. -/
theorem flushed1 (c : Dev nD) (t : Fin cfg1.N) :
    (dat1 (F := Ideal) V c).flushed 5 t
      = ((cfg1.win 5).blk t).view.read (Elt Ideal)
          (dense (V c main_v33) (V c main_v17) (V c main_arg5) (V c main_arg7) (fun i => V c main_v34 (biasRowAt i))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, -, e51⟩ := idx_facts1 t
  funext j
  have hj0 : (j 0).val < 5000 := (j 0).isLt
  have hj1 : (j 1).val < 128 := (j 1).isLt
  refine (stored1_apply (iblk1 V c 0 t) (iblk1 V c 1 t) (iblk1 V c 2 t) (iblk1 V c 4 t) (iblk1 V c 3 t) j).trans ?_
  have r0 : ∀ k : Fin 128, ((cfg1.win 0).blk t).view.emb (blkRow j k) = rowAt (((cfg1.win 5).blk t).view.emb j) k := fun k => by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have r1 : ∀ k : Fin 128, ((cfg1.win 1).blk t).view.emb (blkRow j k) = rowAt (((cfg1.win 5).blk t).view.emb j) k := fun k => by
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have c2 : ∀ k : Fin 128, ((cfg1.win 2).blk t).view.emb (blkCol j k) = colAt (((cfg1.win 5).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have c4 : ∀ k : Fin 128, ((cfg1.win 4).blk t).view.emb (blkCol j k) = colAt (((cfg1.win 5).blk t).view.emb j) k := fun k => by
    funext a; apply Fin.ext
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  have b3 : ((cfg1.win 3).blk t).view.emb (blkBias j) = biasRowAt (((cfg1.win 5).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  refine congrArg₂ (· + ·) (congrArg₂ (· + ·) (Finset.sum_congr rfl fun k _ => ?_) (Finset.sum_congr rfl fun k _ => ?_)) ?_
  · exact congrArg₂ (fun a b : EReal => a * b) (congrArg (V c main_v33) (r0 k)) (congrArg (V c main_arg5) (c2 k))
  · exact congrArg₂ (fun a b : EReal => a * b) (congrArg (V c main_v17) (r1 k)) (congrArg (V c main_arg7) (c4 k))
  · exact congrArg (V c main_v34) b3

/-- An index of the output array is in grid point t's block iff each coordinate is in the block's range. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- The ten row blocks cover the output array: row r lies in block r / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Call 1's output array after its ten write-backs: the dense stage of the operand arrays as the call finds them. -/
theorem array1 (c : Dev nD) :
    (dat1 (F := Ideal) V c).arrAt 5 cfg1.N
      = dense (V c main_v33) (V c main_v17) (V c main_arg5) (V c main_arg7) (fun i => V c main_v34 (biasRowAt i)) :=
  (dat1 (F := Ideal) V c).arrAt_eq_of_cover 5 _ (fun t _ => flushed1 V c t) (cover1)

end GraphConv.Region

end
-- ==== Proof.TwoLayers.lean ====
/-
  The function both programs compute: two stacked graph-convolution layers.

  A layer on node features x, over the edge list e (row 0 the source nodes, row 1 the destination nodes):

    • the neighbour sum agg: negative source indices are wrapped by the node count, the source rows x[s] are
      gathered edge by edge, and they are added into an all-zero array at the destination rows (the host's gather and
      scatter-add: what they do with an index outside the node range is theirs, and is the same in both programs,
      which apply the same two operations to the same index arrays);
    • the dense stage of agg and x with the layer's two weight matrices and its bias vector.

  The second layer takes the first layer's output as its features, over the same edges.
-/
import proofs.«152039_j22428319219806_2_alg».proof.Proof.DenseStage
import proofs.«152039_j22428319219806_2_alg».proof.Proof.Gen.ReferenceIdeal.Read

noncomputable section

namespace GraphConv

open Idealize.ShloMosaic

/-- The edge list: 2 rows (sources, destinations) of 800000 node indices. -/
abbrev Edges : Shape := ⟨2, ![2, 800000]⟩
/-- A bias vector: one entry per output feature. -/
abbrev BiasVec : Shape := ⟨1, ![128]⟩

/-- The neighbour sums of x over the edges e: the host's gather of the source rows, scatter-added from zero at the
    destination rows (the reference program's own stage, as a function of the features and the edge list). -/
def aggregate (x : Feat.Idx → EReal) (e : Edges.Idx → BitVec 32) : Feat.Idx → EReal :=
  Cert.ReferenceIdeal.Read.val_main_v13 (F := Ideal) x e

/-- The bias entry for the output index i: its feature. -/
abbrev biasAt (i : Feat.Idx) : BiasVec.Idx := fun a => match a with
  | ⟨0, _⟩ => ⟨(i 1).val, (i 1).isLt⟩

/-- One layer: the dense stage of the neighbour sums and the features. -/
def layer (x : Feat.Idx → EReal) (e : Edges.Idx → BitVec 32) (wrel : Wt.Idx → EReal) (b : BiasVec.Idx → EReal)
    (wroot : Wt.Idx → EReal) : Feat.Idx → EReal :=
  dense (aggregate x e) x wrel wroot (fun i => b (biasAt i))

/-- Two layers over the same edges. -/
def twoLayers (x : Feat.Idx → EReal) (e : Edges.Idx → BitVec 32) (wrel1 : Wt.Idx → EReal) (b1 : BiasVec.Idx → EReal)
    (wroot1 wrel2 : Wt.Idx → EReal) (b2 : BiasVec.Idx → EReal) (wroot2 : Wt.Idx → EReal) : Feat.Idx → EReal :=
  layer (layer x e wrel1 b1 wroot1) e wrel2 b2 wroot2

end GraphConv

end
-- ==== Proof.KernelArrays.lean ====
/-
  The idealized kernel program's result array, as a function of the launch arguments.

  Reading the buffer contents segment by segment:

    • before the first call the host has formed the neighbour sums of the features x — it narrows x to bf16 before the
      gather and widens the gathered rows back, neither of which changes an extended real, so this is the neighbour sum
      of x itself — and has reshaped the bias vector [128] into a [1, 128] row, whose entry (0, q) is the vector's entry
      q; the features and the two weight matrices are as launched;
    • the first call leaves the dense stage of those in its output array: the first layer;
    • before the second call the host has formed, by the same operations, the neighbour sums of the first layer's
      output over the same edge list (still as launched), and reshaped the second bias; the first layer's output and
      the second layer's weight matrices are untouched by these operations;
    • the second call leaves the dense stage of those: the second layer of the first.
-/
import proofs.«152039_j22428319219806_2_alg».proof.Proof.RegionValue
import proofs.«152039_j22428319219806_2_alg».proof.Proof.TwoLayers
import Idealize.ShloMosaic.Lib.StableHlo.Run

set_option maxRecDepth 16384

noncomputable section

namespace GraphConv.KernelArrays

open Idealize.ShloMosaic Idealize.ShloMosaic.TcCoe Idealize.SL.Sem Idealize.ShloMosaic.StableHlo
open Cert.KernelIdeal Cert.KernelIdeal.Gen
open GraphConv GraphConv.Region

/-- A [128] vector reshaped to a [1, 128] row, read at the row entry for the output index i: the vector's entry at
    i's feature. -/
theorem row_of_vector (b : FVec Ideal S128 .f32) (i : Feat.Idx) :
    shapeCast S1x128 b shapeCasts_S128_S1x128 (biasRowAt i) = b (biasAt i) :=
  shapeCast_apply b shapeCasts_S128_S1x128 (biasRowAt i) (biasAt i) (by
    rw [Shape.rowMajor_val_one, Shape.rowMajor_val_two]
    show (i 1).val = 0 * 128 + (i 1).val
    omega)

/-! ## The two stretches of host operations, from any buffer contents W -/

section Host

variable (W : Valuation τ sig (Elt Ideal))

/-- The first stretch leaves the neighbour sums of the features over the edge list. -/
theorem host0_agg : StableHlo.after hostOps0 W (Proc.devRef .tc main_v15) = aggregate (W (Proc.devRef .tc main_arg0)) (W (Proc.devRef .tc main_arg1)) := by
  after_results_simp
  rfl
/-- It leaves the first bias vector as a row. -/
theorem host0_bias : StableHlo.after hostOps0 W (Proc.devRef .tc main_v16) = shapeCast S1x128 (W (Proc.devRef .tc main_arg3)) shapeCasts_S128_S1x128 := by
  after_results <;> rfl
/-- It writes none of the argument arrays. -/
theorem host0_arg0 : StableHlo.after hostOps0 W (Proc.devRef .tc main_arg0) = W (Proc.devRef .tc main_arg0) := by
  after_results <;> rfl
theorem host0_arg1 : StableHlo.after hostOps0 W (Proc.devRef .tc main_arg1) = W (Proc.devRef .tc main_arg1) := by
  after_results <;> rfl
theorem host0_arg2 : StableHlo.after hostOps0 W (Proc.devRef .tc main_arg2) = W (Proc.devRef .tc main_arg2) := by
  after_results <;> rfl
theorem host0_arg4 : StableHlo.after hostOps0 W (Proc.devRef .tc main_arg4) = W (Proc.devRef .tc main_arg4) := by
  after_results <;> rfl
theorem host0_arg5 : StableHlo.after hostOps0 W (Proc.devRef .tc main_arg5) = W (Proc.devRef .tc main_arg5) := by
  after_results <;> rfl
theorem host0_arg6 : StableHlo.after hostOps0 W (Proc.devRef .tc main_arg6) = W (Proc.devRef .tc main_arg6) := by
  after_results <;> rfl
theorem host0_arg7 : StableHlo.after hostOps0 W (Proc.devRef .tc main_arg7) = W (Proc.devRef .tc main_arg7) := by
  after_results <;> rfl

/-- The second stretch leaves the neighbour sums of the first call's output over the edge list. -/
theorem host1_agg : StableHlo.after hostOps1 W (Proc.devRef .tc main_v33) = aggregate (W (Proc.devRef .tc main_v17)) (W (Proc.devRef .tc main_arg1)) := by
  after_results_simp
  rfl
/-- It leaves the second bias vector as a row. -/
theorem host1_bias : StableHlo.after hostOps1 W (Proc.devRef .tc main_v34) = shapeCast S1x128 (W (Proc.devRef .tc main_arg6)) shapeCasts_S128_S1x128 := by
  after_results <;> rfl
/-- It writes neither the first call's output nor the second layer's weights. -/
theorem host1_out : StableHlo.after hostOps1 W (Proc.devRef .tc main_v17) = W (Proc.devRef .tc main_v17) := by
  after_results <;> rfl
theorem host1_arg5 : StableHlo.after hostOps1 W (Proc.devRef .tc main_arg5) = W (Proc.devRef .tc main_arg5) := by
  after_results <;> rfl
theorem host1_arg7 : StableHlo.after hostOps1 W (Proc.devRef .tc main_arg7) = W (Proc.devRef .tc main_arg7) := by
  after_results <;> rfl

end Host

variable (m : (ℓ : Loc nD τ sig) → Buf (Elt Ideal) ℓ) (ρ : Dev nD → PrngReg)

/-! ## What the first call finds -/

theorem entry0_agg (c : Dev nD) : V1 m ρ c main_v15 = aggregate (m ((c : Thread nD τ).loc main_arg0)) (m ((c : Thread nD τ).loc main_arg1)) := host0_agg (W0 m ρ c)
theorem entry0_arg0 (c : Dev nD) : V1 m ρ c main_arg0 = (m ((c : Thread nD τ).loc main_arg0)) := host0_arg0 (W0 m ρ c)
theorem entry0_arg2 (c : Dev nD) : V1 m ρ c main_arg2 = (m ((c : Thread nD τ).loc main_arg2)) := host0_arg2 (W0 m ρ c)
theorem entry0_arg4 (c : Dev nD) : V1 m ρ c main_arg4 = (m ((c : Thread nD τ).loc main_arg4)) := host0_arg4 (W0 m ρ c)
theorem entry0_bias (c : Dev nD) (i : Feat.Idx) : V1 m ρ c main_v16 (biasRowAt i) = (m ((c : Thread nD τ).loc main_arg3)) (biasAt i) :=
  (congrFun (host0_bias (W0 m ρ c)) (biasRowAt i)).trans (row_of_vector _ i)

/-! ## What the first call leaves -/

/-- The first call's output array: the first layer of the arguments. -/
theorem first_output (c : Dev nD) :
    W2 m ρ c (Proc.devRef .tc main_v17) = layer (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (array0 (V1 m ρ) c).trans ?_
  rw [entry0_agg, entry0_arg0, entry0_arg2, entry0_arg4]
  exact congrArg (dense _ _ _ _) (funext fun i => entry0_bias m ρ c i)
/-- The first call writes none of the edge list, the second layer's weights and its bias: they are as launched. -/
theorem mid_arg1 (c : Dev nD) : W2 m ρ c (Proc.devRef .tc main_arg1) = (m ((c : Thread nD τ).loc main_arg1)) :=
  (W2_of_ne m ρ c main_arg1 (by decide)).trans (host0_arg1 (W0 m ρ c))
theorem mid_arg5 (c : Dev nD) : W2 m ρ c (Proc.devRef .tc main_arg5) = (m ((c : Thread nD τ).loc main_arg5)) :=
  (W2_of_ne m ρ c main_arg5 (by decide)).trans (host0_arg5 (W0 m ρ c))
theorem mid_arg6 (c : Dev nD) : W2 m ρ c (Proc.devRef .tc main_arg6) = (m ((c : Thread nD τ).loc main_arg6)) :=
  (W2_of_ne m ρ c main_arg6 (by decide)).trans (host0_arg6 (W0 m ρ c))
theorem mid_arg7 (c : Dev nD) : W2 m ρ c (Proc.devRef .tc main_arg7) = (m ((c : Thread nD τ).loc main_arg7)) :=
  (W2_of_ne m ρ c main_arg7 (by decide)).trans (host0_arg7 (W0 m ρ c))

/-! ## What the second call finds -/

theorem entry1_agg (c : Dev nD) :
    V3 m ρ c main_v33 = aggregate (layer (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  refine (host1_agg (W2 m ρ c)).trans ?_
  rw [first_output, mid_arg1]
theorem entry1_x (c : Dev nD) : V3 m ρ c main_v17 = layer (m ((c : Thread nD τ).loc main_arg0)) (m ((c : Thread nD τ).loc main_arg1)) (m ((c : Thread nD τ).loc main_arg2)) (m ((c : Thread nD τ).loc main_arg3)) (m ((c : Thread nD τ).loc main_arg4)) :=
  (host1_out (W2 m ρ c)).trans (first_output m ρ c)
theorem entry1_arg5 (c : Dev nD) : V3 m ρ c main_arg5 = (m ((c : Thread nD τ).loc main_arg5)) := (host1_arg5 (W2 m ρ c)).trans (mid_arg5 m ρ c)
theorem entry1_arg7 (c : Dev nD) : V3 m ρ c main_arg7 = (m ((c : Thread nD τ).loc main_arg7)) := (host1_arg7 (W2 m ρ c)).trans (mid_arg7 m ρ c)
theorem entry1_bias (c : Dev nD) (i : Feat.Idx) : V3 m ρ c main_v34 (biasRowAt i) = (m ((c : Thread nD τ).loc main_arg6)) (biasAt i) := by
  refine (congrFun (host1_bias (W2 m ρ c)) (biasRowAt i)).trans ?_
  rw [mid_arg6]
  exact row_of_vector _ i

/-! ## What the second call leaves -/

/-- The result array at the end of the run: the two layers of the arguments. -/
theorem result (c : Dev nD) :
    W4 m ρ c (Proc.devRef .tc main_v35)
      = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  refine (array1 (V3 m ρ) c).trans ?_
  rw [entry1_agg, entry1_x, entry1_arg5, entry1_arg7]
  exact congrArg (dense _ _ _ _) (funext fun i => entry1_bias m ρ c i)

end GraphConv.KernelArrays

end
-- ==== Proof.ReferenceValue.lean ====
/-
  The reference program computes the two layers.

  Its stages, read at an output index: each layer is the product of the neighbour sums with the first weight matrix
  (a sum over the 128 contracted entries), plus the bias (a [128] vector broadcast to [1, 128] and then down the rows:
  at (p, q) it is bias[q]), plus the product of the features with the second weight matrix. That is the dense stage
  with the bias added before the second product instead of after it, and the two groupings agree on the extended
  reals (`dense_bias_first`). The second layer's gather and scatter-add are the first layer's operations applied to
  the first layer's output.
-/
import proofs.«152039_j22428319219806_2_alg».proof.Proof.TwoLayers

noncomputable section

namespace GraphConv.Reference

open Idealize.ShloMosaic Cert.ReferenceIdeal Cert.ReferenceIdeal.Read GraphConv

/-! ## The stages' operand indices are the dense stage's -/

theorem lidx14 (i : Feat.Idx) (k : Fin 128) : lidx_main_v14 i k = rowAt i k :=
  funext fun a => Fin.ext (by match a with | ⟨0, _⟩ => rfl | ⟨1, _⟩ => rfl)
theorem ridx14 (i : Feat.Idx) (k : Fin 128) : ridx_main_v14 i k = colAt i k :=
  funext fun a => Fin.ext (by match a with | ⟨0, _⟩ => rfl | ⟨1, _⟩ => rfl)
theorem lidx18 (i : Feat.Idx) (k : Fin 128) : lidx_main_v18 i k = rowAt i k :=
  funext fun a => Fin.ext (by match a with | ⟨0, _⟩ => rfl | ⟨1, _⟩ => rfl)
theorem ridx18 (i : Feat.Idx) (k : Fin 128) : ridx_main_v18 i k = colAt i k :=
  funext fun a => Fin.ext (by match a with | ⟨0, _⟩ => rfl | ⟨1, _⟩ => rfl)
theorem lidx34 (i : Feat.Idx) (k : Fin 128) : lidx_main_v34 i k = rowAt i k :=
  funext fun a => Fin.ext (by match a with | ⟨0, _⟩ => rfl | ⟨1, _⟩ => rfl)
theorem ridx34 (i : Feat.Idx) (k : Fin 128) : ridx_main_v34 i k = colAt i k :=
  funext fun a => Fin.ext (by match a with | ⟨0, _⟩ => rfl | ⟨1, _⟩ => rfl)
theorem lidx38 (i : Feat.Idx) (k : Fin 128) : lidx_main_v38 i k = rowAt i k :=
  funext fun a => Fin.ext (by match a with | ⟨0, _⟩ => rfl | ⟨1, _⟩ => rfl)
theorem ridx38 (i : Feat.Idx) (k : Fin 128) : ridx_main_v38 i k = colAt i k :=
  funext fun a => Fin.ext (by match a with | ⟨0, _⟩ => rfl | ⟨1, _⟩ => rfl)
/-- The bias broadcast in two steps, read at i: the vector's entry at i's feature. -/
theorem bias16 (i : Feat.Idx) : idx_main_v15 (idx_main_v16 i) = biasAt i :=
  funext fun a => Fin.ext (by match a with | ⟨0, _⟩ => rfl)
theorem bias36 (i : Feat.Idx) : idx_main_v35 (idx_main_v36 i) = biasAt i :=
  funext fun a => Fin.ext (by match a with | ⟨0, _⟩ => rfl)

/-- The first layer's output stage is the layer of the arguments. -/
theorem first_layer (x0 : Feat.Idx → EReal) (x1 : Edges.Idx → BitVec 32) (x2 : Wt.Idx → EReal) (x3 : BiasVec.Idx → EReal)
    (x4 : Wt.Idx → EReal) :
    val_main_v19 (F := Ideal) x0 x1 x2 x3 x4 = layer x0 x1 x2 x3 x4 := by
  funext i
  rw [val_main_v19_apply, val_main_v17_apply, val_main_v14_apply, val_main_v16_apply, val_main_v15_apply, val_main_v18_apply]
  simp only [lidx14, ridx14, lidx18, ridx18, bias16, Ideal.addf_def]
  exact dense_bias_first (aggregate x0 x1) x0 x2 x4 (fun i => x3 (biasAt i)) i

/-- The second layer's neighbour sums are the neighbour sums of the first layer's output, over the same edges. -/
theorem second_aggregate (x0 : Feat.Idx → EReal) (x1 : Edges.Idx → BitVec 32) (x2 : Wt.Idx → EReal) (x3 : BiasVec.Idx → EReal)
    (x4 : Wt.Idx → EReal) :
    val_main_v33 (F := Ideal) x0 x1 x2 x3 x4 = aggregate (val_main_v19 (F := Ideal) x0 x1 x2 x3 x4) x1 := rfl

/-- The reference's result stage is the two layers of the arguments. -/
theorem result_eq (x0 : Feat.Idx → EReal) (x1 : Edges.Idx → BitVec 32) (x2 : Wt.Idx → EReal) (x3 : BiasVec.Idx → EReal)
    (x4 x5 : Wt.Idx → EReal) (x6 : BiasVec.Idx → EReal) (x7 : Wt.Idx → EReal) :
    val_main_v39 (F := Ideal) x0 x1 x2 x3 x4 x5 x6 x7 = twoLayers x0 x1 x2 x3 x4 x5 x6 x7 := by
  funext i
  rw [val_main_v39_apply, val_main_v37_apply, val_main_v34_apply, val_main_v36_apply, val_main_v35_apply, val_main_v38_apply]
  simp only [lidx34, ridx34, lidx38, ridx38, bias36, Ideal.addf_def]
  rw [second_aggregate, first_layer]
  exact dense_bias_first (aggregate (layer x0 x1 x2 x3 x4) x1) (layer x0 x1 x2 x3 x4) x5 x7 (fun i => x6 (biasAt i)) i

end GraphConv.Reference

end
-- ==== Proof.lean ====
/-
  Two stacked graph-convolution layers: the Pallas program against its jnp reference, on the extended reals.

  Both programs compute, per layer, the neighbour sums agg of the node features x over the edge list (a gather of the
  source rows scatter-added from zero at the destination rows, on the host in both programs) and then the dense stage

      out[p, q] = Σ_k agg[p, k] · wrel[k, q] + Σ_k x[p, k] · wroot[k, q] + bias[q].

  The kernel program runs the dense stage as a kernel call over ten blocks of 5000 rows, with bf16 operands (no change
  of value on the extended reals) and the bias added last; the reference adds the bias between the two products. The
  three summands commute and associate on the extended reals with no finiteness assumption, so the precondition is never
  opened. The second layer feeds the first layer's output through the same operations.

  Proof/TwoLayers.lean names that function; Proof/ReferenceValue.lean reads the reference's run as it;
  Proof/BlockProduct.lean, Proof/RegionValue.lean and Proof/KernelArrays.lean read the kernel program's result array as
  it (the body's block entry by entry, each call's array from its ten blocks, the contents from segment to segment);
  Proof/KernelRun.lean is the kernel program's run with the result array named. The three frame claims are the
  generated frames and the reference's generated run; the idealization rewrote nothing, so that claim is trivial.
-/
import proofs.«152039_j22428319219806_2_alg».proof.Defs
import proofs.«152039_j22428319219806_2_alg».proof.Proof.Gen.Kernel
import proofs.«152039_j22428319219806_2_alg».proof.Proof.Gen.Kernel.Skeleton
import proofs.«152039_j22428319219806_2_alg».proof.Proof.Gen.Kernel.Launch
import proofs.«152039_j22428319219806_2_alg».proof.Proof.Gen.Kernel.Points
import proofs.«152039_j22428319219806_2_alg».proof.Proof.Gen.Kernel.Frame
import proofs.«152039_j22428319219806_2_alg».proof.Proof.Gen.KernelIdeal
import proofs.«152039_j22428319219806_2_alg».proof.Proof.Gen.KernelIdeal.Skeleton
import proofs.«152039_j22428319219806_2_alg».proof.Proof.Gen.KernelIdeal.Launch
import proofs.«152039_j22428319219806_2_alg».proof.Proof.Gen.KernelIdeal.Points
import proofs.«152039_j22428319219806_2_alg».proof.Proof.Gen.KernelIdeal.Frame
import proofs.«152039_j22428319219806_2_alg».proof.Proof.Gen.ReferenceIdeal
import proofs.«152039_j22428319219806_2_alg».proof.Proof.Gen.Pre_finite_inputs
import proofs.«152039_j22428319219806_2_alg».proof.Proof.Gen.ReferenceIdeal.Run
import proofs.«152039_j22428319219806_2_alg».proof.Proof.Gen.ReferenceIdeal.Read
import proofs.«152039_j22428319219806_2_alg».proof.Proof.KernelRun
import proofs.«152039_j22428319219806_2_alg».proof.Proof.KernelArrays
import proofs.«152039_j22428319219806_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference has no kernel call: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the two layers of the launch arguments, and the arguments agree. -/
theorem algebraic : Cert.algebraic_KernelIdeal_ReferenceIdeal := by
  intro m ρ m' ρ' _ hagree
  refine ⟨_, (θ_run Cert.KernelIdeal.defs _ _).mono (fun r h c => ⟨(h c).1.trans (GraphConv.KernelArrays.result m ρ c), (h c).2⟩)
    (GraphConv.KernelRun.run m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v39_eq, a0, a1, a2, a3, a4, a5, a6, a7]
  exact GraphConv.Reference.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
